-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x1, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result array named.  @main is five stretches of host operations, the first
  kernel region (the row scaling by the out-degree factor), one more stretch of host operations (the gather along
  the edges and the scatter-add into the destination rows), and the second kernel region (the scaling by the
  in-degree factor, the projection and the bias).  The several-region launch theorem, applied to these segments,
  says that every weakly fair execution terminates without a fault with every unscoped buffer at the contents the
  fold over the segments leaves; read at the result buffer this names the result array, and read at the argument
  buffers it says they end as launched.
-/
import proofs.«138390_j56556129354466_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at what the fold over
    the segments leaves there (the second region's output array after all its write-backs), and the five argument
    arrays end as launched. -/
theorem run_named : θ_run defs (onTc (τ := τ) (main (F := F))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.NamedRun

end
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.Region0.lean ====
/-
  The first kernel region scales the rows.  At grid point `t` the body loads block `t` of the feature matrix
  (rows 5000·t … 5000·t + 4999, all 128 columns) and block `t` of the one-column factor array, multiplies every
  element of a row by that row's factor, and stores the product as block `t` of the output.  The twenty blocks tile
  the 100000 rows, so after all write-backs the output array holds, at `(r, q)`, the feature at `(r, q)` times the
  factor of row `r` — whatever contents the region finds in its two input arrays.
-/
import proofs.«138390_j56556129354466_1_alg».proof.Proof.Gen.KernelIdeal.Frame
import proofs.«138390_j56556129354466_1_alg».proof.Proof.LibLayout2
import Idealize.ShloMosaic.Lib.Pipeline.Value
import Idealize.ShloMosaic.Lib.ValueIdx

set_option maxRecDepth 16384

noncomputable section

namespace Cert.KernelIdeal.RowScale

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- A matrix with every row multiplied by that row's entry of a one-column array. -/
def rowScaled (x : S100000x128.Idx → Elt Ideal .f32) (n : S100000x1.Idx → Elt Ideal .f32) :
    S100000x128.Idx → Elt Ideal .f32 :=
  fun i => x i * n (ix2 (i 0) (0 : Fin 1))

theorem rowScaled_apply (x : S100000x128.Idx → Elt Ideal .f32) (n : S100000x1.Idx → Elt Ideal .f32)
    (r : Fin 100000) (q : Fin 128) : rowScaled x n (ix2 r q) = x (ix2 r q) * n (ix2 r (0 : Fin 1)) := rfl

theorem origin : (![0, 0] : Fin 2 → Nat) = fun _ => 0 := funext fun a => by fin_cases a <;> rfl

/-- The body's stored value at `(p, q)` of a block: the loaded feature times the loaded factor of row `p`. -/
theorem payload_apply (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  rw [mulf_apply, Layout2.broadcastTo_col_apply, shapeCast_self]

theorem payload_eq (x0 : Vec Ideal S5000x128 .f32) (x1 : Vec Ideal S5000x1 .f32) (j : S5000x128.Idx) :
    k0_pay1 x0 x1 j = x0 j * x1 (ix2 (j 0) (0 : Fin 1)) := by
  obtain ⟨p, q, rfl⟩ : ∃ (p : Fin 5000) (q : Fin 128), j = ix2 p q := ⟨j 0, j 1, eq_ix2 j⟩
  exact payload_apply x0 x1 p q

/-- Where the blocks sit: at point `t` all three windows are on block row `t`, block column 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the row-scaled matrix. -/
theorem flushed_eq (c : Dev nD) (t : Fin cfg0.N) :
    (dat0 V c).flushed 2 t
      = ((cfg0.win 2).blk t).view.read (Elt Ideal) (rowScaled (V c main_arg0) (V c main_v11)) := by
  show (cfg0.win 2).cut (grid0.coords t) ((dat0 V c).after 2 t) = _
  rw [after0_2]
  unfold out0_2
  rw [View.canon_unit_zero origin]
  simp only [View.ld_unit_zero (S := S5000x128) origin, View.ld_unit_zero (S := S5000x1) origin]
  obtain ⟨e00, e01, e10, e11, e20, e21⟩ := block_indices t
  refine funext fun (j : S5000x128.Idx) => ?_
  refine (payload_eq _ _ j).trans ?_
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  have key : ∀ (A : S100000x128.Idx → Elt Ideal .f32) (N : S100000x1.Idx → Elt Ideal .f32),
      A (((cfg0.win 0).blk t).view.emb j) * N (((cfg0.win 1).blk t).view.emb (ix2 (j 0) (0 : Fin 1)))
        = rowScaled A N (((cfg0.win 2).blk t).view.emb j) := by
    intro A N
    rw [h0, h1]
    rfl
  exact key (V c main_arg0) (V c main_v11)

/-- An index of the array is in point `t`'s output block iff each coordinate is in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v12).slice (win0_2.rect t)).set ↔ _
  rw [View.set_slice_whole, Rect.mem_set_unit]
  exact Iff.rfl

/-- Row `r` lies in the block of point `r / 5000`: the twenty blocks tile the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, e20, e21⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the row-scaled matrix of the two input arrays as the region finds them. -/
theorem final (c : Dev nD) :
    (dat0 V c).arrAt 2 cfg0.N = rowScaled (V c main_arg0) (V c main_v11) :=
  (dat0 V c).arrAt_eq_of_cover 2 (rowScaled (V c main_arg0) (V c main_v11)) (fun t _ => flushed_eq V c t) covered

end Cert.KernelIdeal.RowScale

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Region1.lean ====
/-
  The second kernel region scales, projects and adds the bias.  At grid point `t` the body loads block `t` of the
  aggregated matrix (rows 5000·t … 5000·t + 4999), block `t` of the one-column factor array, the whole 128 × 128
  weight matrix and the one-row bias; it multiplies every element of a row by that row's factor, multiplies the
  result by the weight matrix into a zero accumulator, adds the bias to every row, and stores block `t` of the
  output.  At the ideal values the changes of float format are the identity and the product into a zero accumulator
  is the plain sum over the contraction index.  The twenty blocks tile the 100000 rows, so after all write-backs the
  output array holds, at `(r, c)`, the sum over `k` of `(a (r, k) · n r) · w (k, c)`, plus `b c` — whatever
  contents the region finds in its four input arrays.
-/
import proofs.«138390_j56556129354466_1_alg».proof.Proof.Gen.KernelIdeal.Frame
import proofs.«138390_j56556129354466_1_alg».proof.Proof.LibLayout2
import proofs.«138390_j56556129354466_1_alg».proof.Proof.LibDotRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Project

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- Rows scaled by a one-column array, multiplied by a 128 × 128 matrix, a one-row array added to every row. -/
def projected (a : S100000x128.Idx → Elt Ideal .f32) (n : S100000x1.Idx → Elt Ideal .f32)
    (w : S128x128.Idx → Elt Ideal .f32) (b : S1x128.Idx → Elt Ideal .f32) : S100000x128.Idx → Elt Ideal .f32 :=
  fun i => (∑ k : Fin 128, (a (ix2 (i 0) k) * n (ix2 (i 0) (0 : Fin 1))) * w (ix2 k (i 1))) + b (ix2 (0 : Fin 1) (i 1))

theorem projected_apply (a : S100000x128.Idx → Elt Ideal .f32) (n : S100000x1.Idx → Elt Ideal .f32)
    (w : S128x128.Idx → Elt Ideal .f32) (b : S1x128.Idx → Elt Ideal .f32) (r : Fin 100000) (c : Fin 128) :
    projected a n w b (ix2 r c)
      = (∑ k : Fin 128, (a (ix2 r k) * n (ix2 r (0 : Fin 1))) * w (ix2 k c)) + b (ix2 (0 : Fin 1) c) := rfl

theorem origin : (![0, 0] : Fin 2 → Nat) = fun _ => 0 := funext fun a => by fin_cases a <;> rfl

/-- The body's stored value at `(p, q)` of a block. -/
theorem payload_apply (x0 : Vec Ideal S5000x128 .f32) (x2 : Vec Ideal S5000x1 .f32) (x7 : Vec Ideal S128x128 .f32)
    (x10 : Vec Ideal S1x128 .f32) (p : Fin 5000) (q : Fin 128) :
    k1_pay1 x0 x2 x7 x10 (ix2 p q)
      = (∑ k : Fin 128, (x0 (ix2 p k) * x2 (ix2 p (0 : Fin 1))) * x7 (ix2 k q)) + x10 (ix2 (0 : Fin 1) q) := by
  unfold k1_pay1
  rw [addf_apply]
  refine congrArg₂ (· + ·) ?_ ?_
  · refine (matmul_zero_rows dot_S5000x128_S128x128_S5000x128_1_0_0_1_n_n none rfl rfl (fun _ _ => rfl) (fun _ _ => rfl)
      (fun _ _ => rfl) (fun _ _ => rfl) _ _ p q).trans ?_
    refine Finset.sum_congr rfl fun k _ => ?_
    rw [truncf_apply, truncf_apply, mulf_apply, shapeCast_self, Layout2.broadcastTo_col_apply, shapeCast_self]
  · rw [broadcastTo_1b_ab_apply, shapeCast_self]

theorem payload_eq (x0 : Vec Ideal S5000x128 .f32) (x2 : Vec Ideal S5000x1 .f32) (x7 : Vec Ideal S128x128 .f32)
    (x10 : Vec Ideal S1x128 .f32) (j : S5000x128.Idx) :
    k1_pay1 x0 x2 x7 x10 j
      = (∑ k : Fin 128, (x0 (ix2 (j 0) k) * x2 (ix2 (j 0) (0 : Fin 1))) * x7 (ix2 k (j 1))) + x10 (ix2 (0 : Fin 1) (j 1)) := by
  obtain ⟨p, q, rfl⟩ : ∃ (p : Fin 5000) (q : Fin 128), j = ix2 p q := ⟨j 0, j 1, eq_ix2 j⟩
  exact payload_apply x0 x2 x7 x10 p q

/-- Where the blocks sit: at point `t` the aggregated matrix, the factor column and the output are on block row `t`;
    the weight matrix and the bias row are on their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of the projected matrix. -/
theorem flushed_eq (c : Dev nD) (t : Fin cfg1.N) :
    (dat1 V c).flushed 4 t
      = ((cfg1.win 4).blk t).view.read (Elt Ideal) (projected (V c main_v22) (V c main_v24) (V c main_arg3) (V c main_v23)) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin,
    View.ld_unit_zero (S := S128x128) origin, View.ld_unit_zero (S := S1x128) origin]
  obtain ⟨e00, e01, e10, e11, e20, e21, e30, e31, e40, e41⟩ := block_indices t
  refine funext fun (j : S5000x128.Idx) => ?_
  refine (payload_eq _ _ _ _ j).trans ?_
  have hj0 : (j 0).val < 5000 := (j 0).isLt
  have hj1 : (j 1).val < 128 := (j 1).isLt
  have h0 : ∀ k : Fin 128, ((cfg1.win 0).blk t).view.emb (ix2 (j 0) k) = ix2 ((((cfg1.win 4).blk t).view.emb j) 0) k := by
    intro k; funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have h1 : ((cfg1.win 1).blk t).view.emb (ix2 (j 0) (0 : Fin 1)) = ix2 ((((cfg1.win 4).blk t).view.emb j) 0) (0 : Fin 1) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ∀ k : Fin 128, ((cfg1.win 2).blk t).view.emb (ix2 k (j 1)) = ix2 k ((((cfg1.win 4).blk t).view.emb j) 1) := by
    intro k; funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  have key : ∀ (A : S100000x128.Idx → Elt Ideal .f32) (N : S100000x1.Idx → Elt Ideal .f32)
      (W : S128x128.Idx → Elt Ideal .f32) (B : S1x128.Idx → Elt Ideal .f32),
      (∑ k : Fin 128, (A (((cfg1.win 0).blk t).view.emb (ix2 (j 0) k))
            * N (((cfg1.win 1).blk t).view.emb (ix2 (j 0) (0 : Fin 1))))
            * W (((cfg1.win 2).blk t).view.emb (ix2 k (j 1))))
          + B (((cfg1.win 3).blk t).view.emb (ix2 (0 : Fin 1) (j 1)))
        = projected A N W B (((cfg1.win 4).blk t).view.emb j) := by
    intro A N W B
    rw [h1, h3]
    refine congrArg (· + _) (Finset.sum_congr rfl fun k _ => ?_)
    rw [h0 k, h2 k]
    rfl
  exact key (V c main_v22) (V c main_v24) (V c main_arg3) (V c main_v23)

/-- An index of the array is in point `t`'s output block iff each coordinate is in the block's range. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v25).slice (win1_4.rect t)).set ↔ _
  rw [View.set_slice_whole, Rect.mem_set_unit]
  exact Iff.rfl

/-- Row `r` lies in the block of point `r / 5000`: the twenty blocks tile the array. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨-, -, -, -, -, -, -, -, e40, e41⟩ := block_indices t
  have ht : t.val = (i 0).val / 5000 := rfl
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the projected matrix of the four input arrays as the region finds them. -/
theorem final (c : Dev nD) :
    (dat1 V c).arrAt 4 cfg1.N = projected (V c main_v22) (V c main_v24) (V c main_arg3) (V c main_v23) :=
  (dat1 V c).arrAt_eq_of_cover 4 (projected (V c main_v22) (V c main_v24) (V c main_arg3) (V c main_v23))
    (fun t _ => flushed_eq V c t) covered

end Cert.KernelIdeal.Project

end
-- ==== Proof.HostTerms.lean ====
/-
  The host-side terms both programs share, as functions of the edge index arrays: the degree factor of every node
  and the aggregate over the edges.
-/
import proofs.«138390_j56556129354466_1_alg».proof.Proof.Gen.KernelIdeal
import Idealize.ShloMosaic.PureOps.Ideal

noncomputable section

namespace Cert.KernelIdeal.HostTerms

open Idealize.ShloMosaic Idealize.SL.Sem
open Cert.KernelIdeal Cert.KernelIdeal.Facts₀ Cert.KernelIdeal.Facts

variable {F : FTy → Type} [FloatOps F]

/-- For every node, the number of edges whose endpoint (as listed in `idx`) is the node: ones scatter-added into a
    zero vector along `idx`. -/
def counts (idx : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 idx)
    (broadcastInDim S1600000 ![] bcast_S_S1600000 (constant (F := F) S_ .f32 0x3F800000#32))

/-- One over the square root of a count clipped below at one. -/
def factorOf (cnt : (⟨S100000, .f32⟩ : BufTy).Contents (Elt F)) : (⟨S100000, .f32⟩ : BufTy).Contents (Elt F) :=
  Host.rsqrt (maximumf (broadcastInDim S100000 ![] bcast_S_S100000 (id (constant (F := F) S_ .f32 0x3F800000#32))) cnt)

/-- The degree factor of every node. -/
def degFactor (idx : (⟨S1600000, .i32⟩ : BufTy).Contents (Elt F)) : (⟨S100000, .f32⟩ : BufTy).Contents (Elt F) :=
  factorOf (counts idx)

/-- An index below zero wrapped by the number of nodes. -/
def wrapped (src : (⟨S1600000, .i32⟩ : BufTy).Contents (Elt F)) : (⟨S1600000, .i32⟩ : BufTy).Contents (Elt F) :=
  select (cmpi .slt src (broadcastInDim S1600000 ![] bcast_S_S1600000 (constantI S_ 32 0#32)))
    (addi src (broadcastInDim S1600000 ![] bcast_S_S1600000 (constantI S_ 32 100000#32))) src

/-- The aggregate over the edges: the rows of `h` gathered along the wrapped source indices and scatter-added into
    the destination rows of a zero matrix. -/
def aggregate (h : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (wrapped src)))

end Cert.KernelIdeal.HostTerms

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.HostRead.lean ====
/-
  What the two kernel regions find in their input arrays.  Before the first region the host computes, for every
  node, its out-degree (a scatter-add of ones along the source indices), clips it below at one and takes the
  reciprocal square root; the first region reads the feature matrix as launched and this factor laid out as one
  column.  Between the regions the host gathers the rows of the first region's output along the (wrapped) source
  indices and scatter-adds them into the destination rows; the second region reads this aggregate, the in-degree
  factor (the same computation along the destination indices) as one column, the weight matrix as launched and the
  bias laid out as one row.  Each statement is the fold of the stretches' operations read at one buffer; the clip is
  a module-local function, whose lines carry their values along the equation between a buffer's type and the value's
  type, which at these literal buffers is the identity.
-/
import proofs.«138390_j56556129354466_1_alg».proof.Proof.Gen.KernelIdeal.Frame
import proofs.«138390_j56556129354466_1_alg».proof.Proof.HostTerms
import proofs.«138390_j56556129354466_1_alg».proof.Proof.LibTRef
import Idealize.ShloMosaic.Lib.StableHlo.Run
import Idealize.ShloMosaic.PureOps.Ideal

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.KernelIdeal.HostTerms

section Transports

variable {Val : EltTy → Type}

/-- At a literal buffer whose type is the value's type, the transport to the buffer is the identity. -/
theorem toBuf_v7 (h1 : main_v7.ty = ⟨S100000, .f32⟩) (h2 : main_v7.space ≠ .host) (h3 : main_v7.isScoped = false)
    (z : (⟨S100000, .f32⟩ : BufTy).Contents Val) : (TRef.of (sig := sig) main_v7 h1 h2 h3).toBuf z = z := rfl
theorem toBuf_v9 (h1 : main_v9.ty = ⟨S100000, .f32⟩) (h2 : main_v9.space ≠ .host) (h3 : main_v9.isScoped = false)
    (z : (⟨S100000, .f32⟩ : BufTy).Contents Val) : (TRef.of (sig := sig) main_v9 h1 h2 h3).toBuf z = z := rfl
/-- And so is the transport back. -/
theorem ofBuf_v3 (h1 : main_v3.ty = ⟨S100000, .f32⟩) (h2 : main_v3.space ≠ .host) (h3 : main_v3.isScoped = false)
    (z : (⟨S100000, .f32⟩ : BufTy).Contents Val) : (TRef.of (sig := sig) main_v3 h1 h2 h3).ofBuf z = z := rfl
theorem ofBuf_v6 (h1 : main_v6.ty = ⟨S100000, .f32⟩) (h2 : main_v6.space ≠ .host) (h3 : main_v6.isScoped = false)
    (z : (⟨S100000, .f32⟩ : BufTy).Contents Val) : (TRef.of (sig := sig) main_v6 h1 h2 h3).ofBuf z = z := rfl
theorem ofBuf_cst_2 (h1 : main_cst_2.ty = ⟨S_, .f32⟩) (h2 : main_cst_2.space ≠ .host) (h3 : main_cst_2.isScoped = false)
    (z : (⟨S_, .f32⟩ : BufTy).Contents Val) : (TRef.of (sig := sig) main_cst_2 h1 h2 h3).ofBuf z = z := rfl
theorem ofBuf_cst_3 (h1 : main_cst_3.ty = ⟨S_, .f32⟩) (h2 : main_cst_3.space ≠ .host) (h3 : main_cst_3.isScoped = false)
    (z : (⟨S_, .f32⟩ : BufTy).Contents Val) : (TRef.of (sig := sig) main_cst_3 h1 h2 h3).ofBuf z = z := rfl

end Transports

variable (m : (ℓ : Loc nD τ sig) → Buf (Elt Ideal) ℓ) (ρ : Dev nD → PrngReg)

/-! ## Before the first region -/

/-- The first region finds the feature matrix as launched. -/
theorem entry0_feat (c : Dev nD) : V5 m ρ c main_arg0 = m ((c : Thread nD τ).loc main_arg0) := by
  show W5 m ρ c (Proc.devRef .tc main_arg0) = _
  dsimp only [W5, W4, W3, W2, W1, hostOps0, hostOps0_1, hostOps0_2, hostOps0_3, hostOps0_4]
  after_results_simp

/-- The first region finds, in its second input, the out-degree factor laid out as one column. -/
theorem entry0_factor (c : Dev nD) :
    V5 m ρ c main_v11
      = shapeCast S100000x1 (degFactor (F := Ideal) (m ((c : Thread nD τ).loc main_arg1))) shapeCasts_S100000_S100000x1 := by
  show W5 m ρ c (Proc.devRef .tc main_v11)
    = shapeCast S100000x1 (degFactor (F := Ideal) (W0 m ρ c (Proc.devRef .tc main_arg1))) shapeCasts_S100000_S100000x1
  dsimp only [W5, W4, W3, W2, W1, hostOps0, hostOps0_1, hostOps0_2, hostOps0_3, hostOps0_4]
  after_results_simp
  simp only [TRef.ofBuf_toBuf, toBuf_v7, ofBuf_v3, ofBuf_cst_2]
  unfold degFactor factorOf counts
  generalize Host.scatterAdd (F := Ideal) scatter_S100000_S1600000x1_S1600000_n_0_0_1 _ _ _ = S
  rfl

/-- Up to the first region: the edge index arrays, the weight matrix and the bias are as launched, and the in-degree
    factor has been computed. -/
theorem W5_arg1 (c : Dev nD) : W5 m ρ c (Proc.devRef .tc main_arg1) = m ((c : Thread nD τ).loc main_arg1) := by
  dsimp only [W5, W4, W3, W2, W1, hostOps0, hostOps0_1, hostOps0_2, hostOps0_3, hostOps0_4]
  after_results_simp
theorem W5_arg2 (c : Dev nD) : W5 m ρ c (Proc.devRef .tc main_arg2) = m ((c : Thread nD τ).loc main_arg2) := by
  dsimp only [W5, W4, W3, W2, W1, hostOps0, hostOps0_1, hostOps0_2, hostOps0_3, hostOps0_4]
  after_results_simp
theorem W5_arg3 (c : Dev nD) : W5 m ρ c (Proc.devRef .tc main_arg3) = m ((c : Thread nD τ).loc main_arg3) := by
  dsimp only [W5, W4, W3, W2, W1, hostOps0, hostOps0_1, hostOps0_2, hostOps0_3, hostOps0_4]
  after_results_simp
theorem W5_arg4 (c : Dev nD) : W5 m ρ c (Proc.devRef .tc main_arg4) = m ((c : Thread nD τ).loc main_arg4) := by
  dsimp only [W5, W4, W3, W2, W1, hostOps0, hostOps0_1, hostOps0_2, hostOps0_3, hostOps0_4]
  after_results_simp
theorem W5_v10 (c : Dev nD) :
    W5 m ρ c (Proc.devRef .tc main_v10) = degFactor (F := Ideal) (m ((c : Thread nD τ).loc main_arg2)) := by
  show W5 m ρ c (Proc.devRef .tc main_v10) = degFactor (F := Ideal) (W0 m ρ c (Proc.devRef .tc main_arg2))
  dsimp only [W5, W4, W3, W2, W1, hostOps0, hostOps0_1, hostOps0_2, hostOps0_3, hostOps0_4]
  after_results_simp
  simp only [TRef.ofBuf_toBuf, toBuf_v9, ofBuf_v6, ofBuf_cst_3]
  unfold degFactor factorOf counts
  generalize Host.scatterAdd (F := Ideal) scatter_S100000_S1600000x1_S1600000_n_0_0_1 _ _ _ = S
  rfl

/-! ## Across the first region: a buffer that is none of its arrays keeps its contents -/

theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_v10 (c : Dev nD) :
    W6 m ρ c (Proc.devRef .tc main_v10) = degFactor (F := Ideal) (m ((c : Thread nD τ).loc main_arg2)) :=
  (W6_of_ne m ρ c main_v10 (by decide)).trans (W5_v10 m ρ c)

/-! ## Before the second region -/

/-- The second region finds, in its first input, the aggregate over the edges of the first region's output. -/
theorem entry1_agg (c : Dev nD) :
    V7 m ρ c main_v22
      = aggregate (F := Ideal) (W6 m ρ c (Proc.devRef .tc main_v12)) (m ((c : Thread nD τ).loc main_arg1))
          (m ((c : Thread nD τ).loc main_arg2)) := by
  show W7 m ρ c (Proc.devRef .tc main_v22) = _
  dsimp only [W7, hostOps1]
  after_results_simp
  rw [W6_arg1, W6_arg2]
  unfold aggregate wrapped
  rfl

/-- In its second input, the in-degree factor laid out as one column. -/
theorem entry1_factor (c : Dev nD) :
    V7 m ρ c main_v24
      = shapeCast S100000x1 (degFactor (F := Ideal) (m ((c : Thread nD τ).loc main_arg2))) shapeCasts_S100000_S100000x1 := by
  show W7 m ρ c (Proc.devRef .tc main_v24) = _
  dsimp only [W7, hostOps1]
  after_results_simp
  rw [W6_v10]
  rfl

/-- In its third input, the weight matrix as launched. -/
theorem entry1_weight (c : Dev nD) : V7 m ρ c main_arg3 = m ((c : Thread nD τ).loc main_arg3) := by
  show W7 m ρ c (Proc.devRef .tc main_arg3) = _
  dsimp only [W7, hostOps1]
  after_results_simp
  exact W6_arg3 m ρ c

/-- In its fourth input, the bias laid out as one row. -/
theorem entry1_bias (c : Dev nD) :
    V7 m ρ c main_v23 = shapeCast S1x128 (m ((c : Thread nD τ).loc main_arg4)) shapeCasts_S128_S1x128 := by
  show W7 m ρ c (Proc.devRef .tc main_v23) = _
  dsimp only [W7, hostOps1]
  after_results_simp
  rw [W6_arg4]
  rfl

end Cert.KernelIdeal.HostRead

end
-- ==== Proof.RefBridge.lean ====
/-
  The kernel's result is the reference's result.  Both programs compute, with the same host operations, the two
  degree factors and the aggregate over the edges; they differ only in where the two scalings and the projection are
  done.  Index by index:
  * the first region's output, at `(r, q)`, is `feat (r, q) · out_factor r` — the reference's product of the feature
    matrix with the out-degree factor broadcast along the rows;
  * hence the aggregate over the edges is the same array in both programs (the same operations of the same array);
  * the second region's output, at `(r, c)`, is `∑ k, (agg (r, k) · in_factor r) · W (k, c) + b c` — the reference's
    dot product of the scaled aggregate with the weight matrix, the bias broadcast over the rows added.
  No law beyond reading both sides at an index is needed, so the finiteness of the inputs is not used.
-/
import proofs.«138390_j56556129354466_1_alg».proof.Proof.Gen.ReferenceIdeal.Read
import proofs.«138390_j56556129354466_1_alg».proof.Proof.HostTerms
import proofs.«138390_j56556129354466_1_alg».proof.Proof.Region0
import proofs.«138390_j56556129354466_1_alg».proof.Proof.Region1
import proofs.«138390_j56556129354466_1_alg».proof.Proof.LibLayout2
import Idealize.ShloMosaic.Lib.ValueLayout

set_option maxRecDepth 16384

noncomputable section

open scoped BigOperators

namespace Cert.Bridge

open Idealize.ShloMosaic Idealize.SL.Sem Idealize.ShloMosaic.ValueIdx
open Cert.KernelIdeal Cert.KernelIdeal.Facts₀ Cert.KernelIdeal.Facts
open Cert.KernelIdeal.HostTerms Cert.KernelIdeal.RowScale Cert.KernelIdeal.Project

/-- The out-degree factor is the reference's stage of the same operations. -/
theorem degFactor_out (x1 : (⟨S1600000, .i32⟩ : BufTy).Contents (Elt Ideal)) :
    degFactor (F := Ideal) x1 = Cert.ReferenceIdeal.Read.val_main_v8 (F := Ideal) x1 := by
  unfold degFactor factorOf counts
  unfold Cert.ReferenceIdeal.Read.val_main_v8 Cert.ReferenceIdeal.Read.val_main_v7 Cert.ReferenceIdeal.Read.val_main_call0_v1 Cert.ReferenceIdeal.Read.val_main_call0_v0 Cert.ReferenceIdeal.Read.val_main_cst_2
    Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst
  rfl

/-- The in-degree factor is the reference's stage of the same operations. -/
theorem degFactor_in (x2 : (⟨S1600000, .i32⟩ : BufTy).Contents (Elt Ideal)) :
    degFactor (F := Ideal) x2 = Cert.ReferenceIdeal.Read.val_main_v10 (F := Ideal) x2 := by
  unfold degFactor factorOf counts
  unfold Cert.ReferenceIdeal.Read.val_main_v10 Cert.ReferenceIdeal.Read.val_main_v9 Cert.ReferenceIdeal.Read.val_main_call1_v1 Cert.ReferenceIdeal.Read.val_main_call1_v0 Cert.ReferenceIdeal.Read.val_main_cst_3
    Cert.ReferenceIdeal.Read.val_main_v6 Cert.ReferenceIdeal.Read.val_main_v4 Cert.ReferenceIdeal.Read.val_main_cst_1 Cert.ReferenceIdeal.Read.val_main_v5 Cert.ReferenceIdeal.Read.val_main_v0 Cert.ReferenceIdeal.Read.val_main_cst
  rfl

/-- The first region's output is the reference's row-scaled feature matrix. -/
theorem scaled_eq (x0 : (⟨S100000x128, .f32⟩ : BufTy).Contents (Elt Ideal)) (x1 : (⟨S1600000, .i32⟩ : BufTy).Contents (Elt Ideal)) :
    rowScaled x0 (shapeCast S100000x1 (degFactor (F := Ideal) x1) shapeCasts_S100000_S100000x1)
      = Cert.ReferenceIdeal.Read.val_main_v13 (F := Ideal) x0 x1 := by
  funext i
  obtain ⟨r, q, rfl⟩ : ∃ (r : Fin 100000) (q : Fin 128), i = ix2 r q := ⟨i 0, i 1, eq_ix2 i⟩
  have hi : Cert.ReferenceIdeal.Read.idx_main_v11 (Cert.ReferenceIdeal.Read.idx_main_v12 (ix2 r q)) = ix1 r :=
    funext fun a => Fin.ext (by match a with | ⟨0, _⟩ => rfl)
  rw [rowScaled_apply, Layout2.shapeCast_col_apply, degFactor_out, Cert.ReferenceIdeal.Read.val_main_v13_apply, Cert.ReferenceIdeal.Read.val_main_v12_apply,
    Cert.ReferenceIdeal.Read.val_main_v11_apply, hi]
  rfl

/-- The aggregate over the edges of that matrix is the reference's aggregate. -/
theorem aggregate_eq (x0 : (⟨S100000x128, .f32⟩ : BufTy).Contents (Elt Ideal)) (x1 x2 : (⟨S1600000, .i32⟩ : BufTy).Contents (Elt Ideal)) :
    aggregate (F := Ideal) (Cert.ReferenceIdeal.Read.val_main_v13 (F := Ideal) x0 x1) x1 x2 = Cert.ReferenceIdeal.Read.val_main_v23 (F := Ideal) x0 x1 x2 := by
  unfold aggregate wrapped
  unfold Cert.ReferenceIdeal.Read.val_main_v23 Cert.ReferenceIdeal.Read.val_main_v22 Cert.ReferenceIdeal.Read.val_main_v21 Cert.ReferenceIdeal.Read.val_main_cst_5 Cert.ReferenceIdeal.Read.val_main_v20 Cert.ReferenceIdeal.Read.val_main_v19
    Cert.ReferenceIdeal.Read.val_main_v18 Cert.ReferenceIdeal.Read.val_main_v17 Cert.ReferenceIdeal.Read.val_main_v16 Cert.ReferenceIdeal.Read.val_main_c_4 Cert.ReferenceIdeal.Read.val_main_v15 Cert.ReferenceIdeal.Read.val_main_v14 Cert.ReferenceIdeal.Read.val_main_c
  rfl

/-- The kernel's result array as one function of the five arguments: the features row-scaled by the out-degree
    factor, aggregated over the edges, row-scaled by the in-degree factor, projected, the bias added. -/
def kernelResult (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    (⟨S100000x128, .f32⟩ : BufTy).Contents (Elt Ideal) :=
  projected
    (aggregate (F := Ideal) (rowScaled x0 (shapeCast S100000x1 (degFactor (F := Ideal) x1) shapeCasts_S100000_S100000x1)) x1 x2)
    (shapeCast S100000x1 (degFactor (F := Ideal) x2) shapeCasts_S100000_S100000x1) x3
    (shapeCast S1x128 x4 shapeCasts_S128_S1x128)

/-- The kernel's result array, as a function of the five arguments, is the reference's result. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    kernelResult x0 x1 x2 x3 x4 = Cert.ReferenceIdeal.Read.val_main_v30 (F := Ideal) x0 x1 x2 x3 x4 := by
  unfold kernelResult
  rw [scaled_eq, aggregate_eq]
  funext i
  obtain ⟨r, c, rfl⟩ : ∃ (r : Fin 100000) (c : Fin 128), i = ix2 r c := ⟨i 0, i 1, eq_ix2 i⟩
  have hb : Cert.ReferenceIdeal.Read.idx_main_v28 (Cert.ReferenceIdeal.Read.idx_main_v29 (ix2 r c)) = ix1 c :=
    funext fun a => Fin.ext (by match a with | ⟨0, _⟩ => rfl)
  rw [projected_apply, shapeCast_a_1a_apply, Layout2.shapeCast_col_apply, degFactor_in, Cert.ReferenceIdeal.Read.val_main_v30_apply,
    Cert.ReferenceIdeal.Read.val_main_v27_apply, Cert.ReferenceIdeal.Read.val_main_v29_apply, Cert.ReferenceIdeal.Read.val_main_v28_apply, hb]
  show _ + _ = _ + _
  refine congrArg (· + x4 (ix1 c)) (Finset.sum_congr rfl fun k _ => ?_)
  have hl : Cert.ReferenceIdeal.Read.lidx_main_v27 (ix2 r c) k = ix2 r k :=
    funext fun a => Fin.ext (by match a with | ⟨0, _⟩ => rfl | ⟨1, _⟩ => rfl)
  have hr : Cert.ReferenceIdeal.Read.ridx_main_v27 (ix2 r c) k = ix2 k c :=
    funext fun a => Fin.ext (by match a with | ⟨0, _⟩ => rfl | ⟨1, _⟩ => rfl)
  have hn : Cert.ReferenceIdeal.Read.idx_main_v24 (Cert.ReferenceIdeal.Read.idx_main_v25 (ix2 r k)) = ix1 r :=
    funext fun a => Fin.ext (by match a with | ⟨0, _⟩ => rfl)
  rw [hl, hr, Cert.ReferenceIdeal.Read.val_main_v26_apply, Cert.ReferenceIdeal.Read.val_main_v25_apply, Cert.ReferenceIdeal.Read.val_main_v24_apply, hn]
  rfl

end Cert.Bridge

end
-- ==== Proof.KernelValue.lean ====
/-
  The idealized kernel's result array as one function of the launched arguments.  The run names the result buffer's
  final contents as the second region's output array after its write-backs; that array is the projection of what the
  region finds in its inputs; those are the host's aggregate of the first region's output array, the in-degree factor,
  the weight matrix and the bias; the first region's output array is the row scaling of what it finds in its inputs,
  the launched features and the out-degree factor.
-/
import proofs.«138390_j56556129354466_1_alg».proof.Proof.KernelRun
import proofs.«138390_j56556129354466_1_alg».proof.Proof.Region0
import proofs.«138390_j56556129354466_1_alg».proof.Proof.Region1
import proofs.«138390_j56556129354466_1_alg».proof.Proof.HostRead
import proofs.«138390_j56556129354466_1_alg».proof.Proof.RefBridge

set_option maxRecDepth 16384

noncomputable section

namespace Cert.KernelIdeal.Result

open Idealize.ShloMosaic Idealize.ShloMosaic.TcCoe Idealize.SL.Sem
open Cert.KernelIdeal Cert.KernelIdeal.Gen Cert.KernelIdeal.HostTerms Cert.KernelIdeal.HostRead

variable (m : (ℓ : Loc nD τ sig) → Buf (Elt Ideal) ℓ) (ρ : Dev nD → PrngReg)

/-- The result buffer's final contents are the kernel's function of the five launched arguments. -/
theorem result_array (c : Dev nD) :
    W8 m ρ c (Proc.devRef .tc main_v25)
      = Cert.Bridge.kernelResult (m ((c : Thread nD τ).loc main_arg0)) (m ((c : Thread nD τ).loc main_arg1))
          (m ((c : Thread nD τ).loc main_arg2)) (m ((c : Thread nD τ).loc main_arg3)) (m ((c : Thread nD τ).loc main_arg4)) := by
  have e1 : W8 m ρ c (Proc.devRef .tc main_v25) = (dat1 (V7 m ρ) c).arrAt 4 cfg1.N := W8_arr m ρ c 4
  have e2 : W6 m ρ c (Proc.devRef .tc main_v12) = (dat0 (V5 m ρ) c).arrAt 2 cfg0.N := W6_arr m ρ c 2
  rw [e1, Project.final (V7 m ρ) c, entry1_agg, entry1_factor, entry1_weight, entry1_bias, e2, RowScale.final (V5 m ρ) c,
    entry0_feat, entry0_factor]
  rfl

/-- Every weakly fair execution of the idealized kernel terminates, nothing faulting, with the result array at the
    kernel's function of the launched arguments and the arguments unchanged. -/
theorem run : θ_run defs (onTc (τ := τ) (main (F := Ideal))) ⟨m, fun _ => 0, ρ⟩ (fun r => ∀ c : Dev nD,
      r.2.mem ((c.tc : Thread nD τ).loc main_v25)
        = Cert.Bridge.kernelResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_array m ρ c), (h c).2⟩)
    (Cert.KernelIdeal.NamedRun.run_named m ρ)

end Cert.KernelIdeal.Result

end
-- ==== Proof.lean ====
/-
  The certificate of a graph convolution with symmetric degree normalisation,
      out = ((A · (feat ∘ out_factor)) ∘ in_factor) · W + b,
  where `out_factor` and `in_factor` scale rows by one over the square root of the (clipped) out- and in-degree and
  `A` gathers along the edges' sources and scatter-adds into their destinations.  The kernel does the two row
  scalings, the projection and the bias in two tiled regions and leaves the degree counts, the gather and the
  scatter-add to the host; the reference does everything on the host.

  * The three frames: the two kernel programs run by the several-region launch theorem over their segments, the
    reference by its run as a line of host operations.
  * The idealization rewrote nothing, so there is nothing to preserve.
  * At the ideal values the kernel's result array is one function of the five arguments (the named run, each
    region's array by its blocks' cover, the host stretches read at the regions' input buffers), and that function is
    the reference's result index by index: the changes of float format are the identity, the product into a zero
    accumulator is the plain sum, and both sides then have the same terms in the same order.  The inputs'
    finiteness is not needed.
-/
import proofs.«138390_j56556129354466_1_alg».proof.Defs
import proofs.«138390_j56556129354466_1_alg».proof.Proof.Gen.Kernel
import proofs.«138390_j56556129354466_1_alg».proof.Proof.Gen.Kernel.Frame
import proofs.«138390_j56556129354466_1_alg».proof.Proof.Gen.KernelIdeal
import proofs.«138390_j56556129354466_1_alg».proof.Proof.Gen.KernelIdeal.Frame
import proofs.«138390_j56556129354466_1_alg».proof.Proof.Gen.ReferenceIdeal
import proofs.«138390_j56556129354466_1_alg».proof.Proof.Gen.ReferenceIdeal.Run
import proofs.«138390_j56556129354466_1_alg».proof.Proof.Gen.ReferenceIdeal.Read
import proofs.«138390_j56556129354466_1_alg».proof.Proof.Gen.Pre_finite_inputs
import proofs.«138390_j56556129354466_1_alg».proof.Proof.KernelValue
import proofs.«138390_j56556129354466_1_alg».proof.Proof.RefBridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result array: the kernel's
    function of the arguments, which is the reference's composed term. -/
theorem algebraic : Cert.algebraic_KernelIdeal_ReferenceIdeal := by
  intro m ρ m' ρ' _ hagree
  refine ⟨fun c => Cert.Bridge.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, (hagree c).1, (hagree c).2.1, (hagree c).2.2.1, (hagree c).2.2.2.1,
    (hagree c).2.2.2.2]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
